-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S400x10000 : Shape := ⟨2, ![400, 10000]⟩
abbrev S400x128 : Shape := ⟨2, ![400, 128]⟩
abbrev S1x128 : Shape := ⟨2, ![1, 128]⟩

abbrev nBuf : Space → Nat
  | .hbm => 5
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S128, .f32⟩
  | .local _ .vmem, ⟨3, _⟩ => ⟨S400x10000, .f32⟩
  | .local _ .vmem, ⟨4, _⟩ => ⟨S400x10000, .f32⟩
  | .local _ .vmem, ⟨5, _⟩ => ⟨S400x128, .f32⟩
  | .local _ .vmem, ⟨6, _⟩ => ⟨S400x128, .f32⟩
  | .local _ .vmem, ⟨7, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  inb_S128_S128_0 : ∀ a, (![0] : Fin 1 → Nat) a + S128.size a ≤ S128.size a
  h_S128 : 0 < S128.numel
  shapeCasts_S128_S1x128 : S128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  dot_S10000x128_S128x128_S10000x128_1_1_0_0_n_n_wf : DotDims.WF S10000x128 S128x128 S10000x128 [1] [1] [0] [0] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x10000.size a ≤ S10000x10000.size a
  hwx0_3 : ∀ i : grid0.Coords, EltTy.bits .f32 = 32 ∨ (Rect.block (s := S10000x10000) S400x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S400x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S128x128, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S_, .f32⟩
  | .hbm, ⟨11, _⟩ => ⟨S10000x128, .f32⟩
  | .hbm, ⟨12, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.MatAssoc.lean ====
/-
  The algebraic law that joins the two programs: a product of three matrices may be bracketed either way.
  For real matrices A (rows i, columns j), X (rows j, columns k) and W (rows o, columns k),

      ∑ k, (∑ j, A i j * X j k) * W o k  =  ∑ j, A i j * (∑ k, X j k * W o k).

  Over the extended reals the law is stated for matrices all of whose entries are real numbers: it uses
  distributivity and the exchange of two finite sums, both of which can fail at an infinite entry.
-/
import Mathlib

noncomputable section

namespace Cert.MatAssoc

open Finset

/-- A finite sum of real numbers, taken in the extended reals, is the real sum. -/
theorem coe_sum {ι : Type*} (s : Finset ι) (f : ι → ℝ) :
    (∑ a ∈ s, ((f a : ℝ) : EReal)) = ((∑ a ∈ s, f a : ℝ) : EReal) := by
  classical
  induction s using Finset.induction_on with
  | empty => simp
  | insert a s ha ih => rw [Finset.sum_insert ha, Finset.sum_insert ha, ih, EReal.coe_add]

/-- Re-bracketing a triple matrix product, on the reals. -/
theorem real_assoc {I J K : Type*} [Fintype J] [Fintype K]
    (A : I → J → ℝ) (X : J → K → ℝ) (W : K → ℝ) (i : I) :
    (∑ k, (∑ j, A i j * X j k) * W k) = ∑ j, A i j * (∑ k, X j k * W k) := by
  simp_rw [Finset.sum_mul, Finset.mul_sum]
  rw [Finset.sum_comm]
  refine Finset.sum_congr rfl fun j _ => Finset.sum_congr rfl fun k _ => ?_
  ring

/-- Re-bracketing a triple matrix product over the extended reals, for matrices with real entries. -/
theorem ereal_assoc {J K : Type*} [Fintype J] [Fintype K]
    (a : J → EReal) (x : J → K → EReal) (w : K → EReal)
    (ha : ∀ j, ∃ r : ℝ, a j = (r : EReal)) (hx : ∀ j k, ∃ r : ℝ, x j k = (r : EReal))
    (hw : ∀ k, ∃ r : ℝ, w k = (r : EReal)) :
    (∑ k, (∑ j, a j * x j k) * w k) = ∑ j, a j * (∑ k, x j k * w k) := by
  choose a' ha' using ha
  choose x' hx' using hx
  choose w' hw' using hw
  simp only [ha', hx', hw', ← EReal.coe_mul, coe_sum]
  exact congrArg _ (real_assoc (I := Unit) (fun _ => a') x' w' ())

end Cert.MatAssoc

end
-- ==== Proof.Spec.lean ====
/-
  The graph-convolution layer as one function of its four arrays, in the two bracketings the two programs use.

  For features x ([10000, 128]), a dense adjacency matrix a ([10000, 10000]), weights w ([128, 128], stored
  [out, in]) and a bias b (128 entries), entry (i, o) of the layer's output is

      max ( (∑ j, a(i,j) · (∑ k, x(j,k) · w(o,k))) + b(o) , 0 )        -- aggregate the projected features
      max ( (∑ k, (∑ j, a(i,j) · x(j,k)) · w(o,k)) + b(o) , 0 )        -- project the aggregated features

  The first bracketing multiplies the adjacency matrix into x · wᵀ; the second multiplies a · x into wᵀ. They agree
  when the entries of a, x and w are real numbers, because a product of three matrices may be bracketed either way;
  the bias may be any extended real. The zero of the final maximum is kept as the 32-bit word both programs print.
-/
import Idealize.ShloMosaic.Lib.ValueIdx
import Idealize.ShloMosaic.PureOps.Ideal
import proofs.«172232_g68204080660514_cont_9to1_m_597_22_alg».proof.Proof.MatAssoc

noncomputable section

namespace Cert.GraphLayer

open Idealize.ShloMosaic Idealize.ShloMosaic.ValueIdx

/-- Entry (j, o) of the projected features x · wᵀ: row j of x against row o of w. -/
def proj (x : (⟨2, ![10000, 128]⟩ : Shape).Idx → EReal) (w : (⟨2, ![128, 128]⟩ : Shape).Idx → EReal)
    (j : Fin 10000) (o : Fin 128) : EReal :=
  ∑ k : Fin 128, x (ix2 j k) * w (ix2 o k)

/-- The layer with the projection done first: max (a · (x · wᵀ) + b, 0). -/
def aggProj (x : (⟨2, ![10000, 128]⟩ : Shape).Idx → EReal) (a : (⟨2, ![10000, 10000]⟩ : Shape).Idx → EReal)
    (w : (⟨2, ![128, 128]⟩ : Shape).Idx → EReal) (b : (⟨1, ![128]⟩ : Shape).Idx → EReal) :
    (⟨2, ![10000, 128]⟩ : Shape).Idx → EReal := fun i =>
  max ((∑ j : Fin 10000, a (ix2 (i 0) j) * proj x w j (i 1)) + b (ix1 (i 1))) (Ideal.ofBits .f32 0x00000000#32)

/-- The layer with the aggregation done first: max ((a · x) · wᵀ + b, 0). -/
def projAgg (x : (⟨2, ![10000, 128]⟩ : Shape).Idx → EReal) (a : (⟨2, ![10000, 10000]⟩ : Shape).Idx → EReal)
    (w : (⟨2, ![128, 128]⟩ : Shape).Idx → EReal) (b : (⟨1, ![128]⟩ : Shape).Idx → EReal) :
    (⟨2, ![10000, 128]⟩ : Shape).Idx → EReal := fun i =>
  max ((∑ k : Fin 128, (∑ j : Fin 10000, a (ix2 (i 0) j) * x (ix2 j k)) * w (ix2 (i 1) k)) + b (ix1 (i 1)))
    (Ideal.ofBits .f32 0x00000000#32)

/-- The two bracketings agree when x, a and w have real entries. -/
theorem aggProj_eq_projAgg (x : (⟨2, ![10000, 128]⟩ : Shape).Idx → EReal)
    (a : (⟨2, ![10000, 10000]⟩ : Shape).Idx → EReal) (w : (⟨2, ![128, 128]⟩ : Shape).Idx → EReal)
    (b : (⟨1, ![128]⟩ : Shape).Idx → EReal)
    (hx : ∀ i, ∃ r : ℝ, x i = (r : EReal)) (ha : ∀ i, ∃ r : ℝ, a i = (r : EReal))
    (hw : ∀ i, ∃ r : ℝ, w i = (r : EReal)) :
    aggProj x a w b = projAgg x a w b := by
  funext i
  unfold aggProj projAgg proj
  rw [Cert.MatAssoc.ereal_assoc (fun j => a (ix2 (i 0) j)) (fun j k => x (ix2 j k)) (fun k => w (ix2 (i 1) k))
    (fun j => ha _) (fun j k => hx _) (fun k => hw _)]

end Cert.GraphLayer

end
-- ==== Proof.FiniteArgs.lean ====
/-
  Finite inputs are real inputs. The precondition tests every entry v of the four float arrays by |v| < +∞, takes
  the conjunction of the tests over each array, and the conjunction of the four results. Floats read as extended reals,
  |v| is max v (-v) and the constant compared against is the top element, so a passing test excludes v = ⊤ and v = ⊥
  (at both of which max v (-v) = ⊤), and what remains of the extended reals is the real line.
-/
import proofs.«172232_g68204080660514_cont_9to1_m_597_22_alg».proof.Pre_finite_inputs
import Idealize.ShloMosaic.PureOps.Ideal
import Idealize.ShloMosaic.Lib.ReduceAll
import Idealize.ShloMosaic.Lib.ValueIdx
noncomputable section
namespace Cert.FiniteArgs
open Idealize.ShloMosaic

/-- The scalar shape has one index. -/
instance : Subsingleton Cert.Pre_finite_inputs.S_.Idx := ⟨fun a b => funext fun d => d.elim0⟩

/-- The f32 pattern with all exponent bits set and a zero significand denotes +∞. -/
theorem inf_eq_top : Ideal.ofBits .f32 0x7F800000#32 = (⊤ : EReal) := by
  simp [Ideal.ofBits, Ideal.ieee]

/-- An extended real v with max v (-v) < +∞ is a real number: at ⊥ and at ⊤ the maximum is ⊤. -/
theorem real_of_abs_lt (v : EReal)
    (h : Ideal.cmp .olt (max v (-v)) (Ideal.ofBits .f32 0x7F800000#32) = 1#1) : ∃ r : ℝ, v = (r : EReal) := by
  rw [inf_eq_top] at h
  induction v using EReal.rec with
  | bot => exact absurd h (by simp [Ideal.cmp])
  | coe r => exact ⟨r, rfl⟩
  | top => exact absurd h (by simp [Ideal.cmp])

/-- The conjunction over all entries of the test |v i| < +∞ holds only if every entry is real. -/
theorem all_real {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (v : FVec Ideal s .f32)
    (h : Host.reduce IntOp.andi
          (cmpf .olt (Host.absf v)
            (broadcastInDim s ![] hb (constant (F := Ideal) Cert.Pre_finite_inputs.S_ .f32 0x7F800000#32)))
          (constantI Cert.Pre_finite_inputs.S_ 1 1#1) hr hu ValueIdx.ix0 = 1#1) :
    ∀ i, ∃ r : ℝ, v i = (r : EReal) := fun i =>
  real_of_abs_lt (v i) (Host.reduce_andi_all _ _ hr hu ValueIdx.ix0 h i)

theorem real_of_pre [Cert.Pre_finite_inputs.Facts]
    (x : FVec Ideal Cert.Pre_finite_inputs.S10000x128 .f32) (a : FVec Ideal Cert.Pre_finite_inputs.S10000x10000 .f32)
    (w : FVec Ideal Cert.Pre_finite_inputs.S128x128 .f32) (b : FVec Ideal Cert.Pre_finite_inputs.S128 .f32)
    (h : Cert.Pre_finite_inputs.fn (F := Ideal) x a w b = fun _ => 1#1) :
    (∀ i, ∃ r : ℝ, x i = (r : EReal)) ∧ (∀ i, ∃ r : ℝ, a i = (r : EReal)) ∧
    (∀ i, ∃ r : ℝ, w i = (r : EReal)) ∧ (∀ i, ∃ r : ℝ, b i = (r : EReal)) := by
  have h0 := congrFun h ValueIdx.ix0
  dsimp only [Cert.Pre_finite_inputs.fn, Cert.Pre_finite_inputs.fn_part1] at h0
  obtain ⟨h123, hb⟩ := IntOp.andi_eq_one.1 h0
  obtain ⟨h12, hw⟩ := IntOp.andi_eq_one.1 h123
  obtain ⟨hx, ha⟩ := IntOp.andi_eq_one.1 h12
  exact ⟨all_real _ _ _ x hx, all_real _ _ _ a ha, all_real _ _ _ w hw, all_real _ _ _ b hb⟩

end Cert.FiniteArgs
end
-- ==== Proof.RefEntry.lean ====
/-
  The reference program is the layer with the aggregation done first.

  The reference computes relu((a · x) · wᵀ + b) in nine host operations: the product a · x, the transpose of w,
  the product of the two, the bias broadcast along the rows in two steps, the sum, a zero broadcast over the whole
  array, and the maximum with it. Reading each operation at an index (p, q) gives

      max ( (∑ k, (∑ j, a(p,j) · x(j,k)) · w(q,k)) + b(q) , 0 )

  which is entry (p, q) of the specification's `projAgg`. The only work is to identify the indices at which the
  operands are read: each is a pair (or a single coordinate) built from p, q and the summation variables.
-/
import proofs.«172232_g68204080660514_cont_9to1_m_597_22_alg».proof.Proof.Gen.ReferenceIdeal.Read
import proofs.«172232_g68204080660514_cont_9to1_m_597_22_alg».proof.Proof.Spec
noncomputable section
namespace Cert.RefLayer
open Idealize.ShloMosaic Idealize.ShloMosaic.ValueIdx Cert.ReferenceIdeal

/-! ## Where the operands are read -/

/-- Entry (p, q) of (a · x) · wᵀ reads a · x at (p, k). -/
theorem lidx2_eq (p : Fin 10000) (q k : Fin 128) :
    Cert.ReferenceIdeal.Read.lidx_main_v2 (ix2 p q) k = ix2 p k :=
  funext fun a => Fin.ext (by match a with | ⟨0, _⟩ => rfl | ⟨1, _⟩ => rfl)

/-- Entry (p, q) of (a · x) · wᵀ reads wᵀ at (k, q). -/
theorem ridx2_eq (p : Fin 10000) (q k : Fin 128) :
    Cert.ReferenceIdeal.Read.ridx_main_v2 (ix2 p q) k = ix2 k q :=
  funext fun a => Fin.ext (by match a with | ⟨0, _⟩ => rfl | ⟨1, _⟩ => rfl)

/-- Entry (k, q) of wᵀ is entry (q, k) of w. -/
theorem idx1_eq (k q : Fin 128) :
    Cert.ReferenceIdeal.Read.idx_main_v1 (ix2 k q) = ix2 q k :=
  funext fun a => Fin.ext (by match a with | ⟨0, _⟩ => rfl | ⟨1, _⟩ => rfl)

/-- Entry (p, k) of a · x reads a at (p, j). -/
theorem lidx0_eq (p j : Fin 10000) (k : Fin 128) :
    Cert.ReferenceIdeal.Read.lidx_main_v0 (ix2 p k) j = ix2 p j :=
  funext fun a => Fin.ext (by match a with | ⟨0, _⟩ => rfl | ⟨1, _⟩ => rfl)

/-- Entry (p, k) of a · x reads x at (j, k). -/
theorem ridx0_eq (p j : Fin 10000) (k : Fin 128) :
    Cert.ReferenceIdeal.Read.ridx_main_v0 (ix2 p k) j = ix2 j k :=
  funext fun a => Fin.ext (by match a with | ⟨0, _⟩ => rfl | ⟨1, _⟩ => rfl)

/-- The bias, broadcast first to one row and then along the rows, is read at q. -/
theorem bias_idx_eq (p : Fin 10000) (q : Fin 128) :
    Cert.ReferenceIdeal.Read.idx_main_v3 (Cert.ReferenceIdeal.Read.idx_main_v4 (ix2 p q)) = ix1 q :=
  funext fun a => Fin.ext (by match a with | ⟨0, _⟩ => rfl)

/-! ## The two products at an index -/

/-- Entry (p, k) of a · x. -/
theorem agg_apply (x0 : (⟨S10000x128, .f32⟩ : BufTy).Contents (Elt Ideal))
    (x1 : (⟨S10000x10000, .f32⟩ : BufTy).Contents (Elt Ideal)) (p : Fin 10000) (k : Fin 128) :
    Cert.ReferenceIdeal.Read.val_main_v0 (F := Ideal) x0 x1 (ix2 p k)
      = ∑ j : Fin 10000, x1 (ix2 p j) * x0 (ix2 j k) := by
  refine (Cert.ReferenceIdeal.Read.val_main_v0_apply x0 x1 (ix2 p k)).trans ?_
  refine Finset.sum_congr rfl fun j _ => ?_
  rw [lidx0_eq, ridx0_eq]

/-- Entry (p, q) of (a · x) · wᵀ. -/
theorem projAgg_sum_apply (x0 : (⟨S10000x128, .f32⟩ : BufTy).Contents (Elt Ideal))
    (x1 : (⟨S10000x10000, .f32⟩ : BufTy).Contents (Elt Ideal))
    (x2 : (⟨S128x128, .f32⟩ : BufTy).Contents (Elt Ideal)) (p : Fin 10000) (q : Fin 128) :
    Cert.ReferenceIdeal.Read.val_main_v2 (F := Ideal) x0 x1 x2 (ix2 p q)
      = ∑ k : Fin 128, (∑ j : Fin 10000, x1 (ix2 p j) * x0 (ix2 j k)) * x2 (ix2 q k) := by
  refine (Cert.ReferenceIdeal.Read.val_main_v2_apply x0 x1 x2 (ix2 p q)).trans ?_
  refine Finset.sum_congr rfl fun k _ => ?_
  rw [lidx2_eq, ridx2_eq, agg_apply, Cert.ReferenceIdeal.Read.val_main_v1_apply, idx1_eq]

/-- Entry (p, q) of the broadcast bias. -/
theorem bias_apply (x3 : (⟨S128, .f32⟩ : BufTy).Contents (Elt Ideal)) (p : Fin 10000) (q : Fin 128) :
    Cert.ReferenceIdeal.Read.val_main_v4 (F := Ideal) x3 (ix2 p q) = x3 (ix1 q) := by
  rw [Cert.ReferenceIdeal.Read.val_main_v4_apply, Cert.ReferenceIdeal.Read.val_main_v3_apply, bias_idx_eq]

/-- Every entry of the broadcast zero is the printed 32-bit word. -/
theorem zero_apply (i : S10000x128.Idx) :
    Cert.ReferenceIdeal.Read.val_main_call0_v0 (F := Ideal) i = Ideal.ofBits .f32 0x00000000#32 := by
  rw [Cert.ReferenceIdeal.Read.val_main_call0_v0_apply, Cert.ReferenceIdeal.Read.val_main_call0_cst_apply,
    Ideal.ofBits_def]

/-! ## The reference is the layer -/

theorem ref_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal)) :
    Cert.ReferenceIdeal.Read.val_main_v6 (F := Ideal) x0 x1 x2 x3 = Cert.GraphLayer.projAgg x0 x1 x2 x3 := by
  funext i
  obtain ⟨p, q, rfl⟩ : ∃ (p : Fin 10000) (q : Fin 128), i = ix2 p q := ⟨i 0, i 1, eq_ix2 i⟩
  rw [Cert.ReferenceIdeal.Read.val_main_v6_apply, Cert.ReferenceIdeal.Read.val_main_v5_apply,
    projAgg_sum_apply, bias_apply, zero_apply, Ideal.maximumf_def, Ideal.addf_def]
  rfl

end Cert.RefLayer
end
-- ==== Proof.KernelPieces.lean ====
/-
  What one grid point's body leaves behind, as values of what it loaded.

  The body keeps the projected features z = x · wᵀ in a scratch block that survives from one grid point to the next.
  At the first point it loads x and w, stores z over the whole scratch block, reads the block back, and stores the
  output block computed from the adjacency block, that z and the bias. At every later point it stores nothing into the
  scratch block and computes the output block from what the scratch block already holds. In each case a buffer's final
  contents are the payload of the one store that covered it whole, and a load of a whole buffer reads its contents; the
  read-back at the first point reads the payload just stored. The statements hold for any float semantics.
-/
import proofs.«172232_g68204080660514_cont_9to1_m_597_22_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelPieces

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- A later point: the output block is the payload of the adjacency block x3, the scratch contents xs0 the point
    before left, and the bias x2. -/
theorem out_B (c : Dev nD) (i : grid0.Coords) (a1 : Memref sig .tc .vmem S10000x128 .f32) (h1 : a1.IsWhole) (a2 : Memref sig .tc .vmem S128x128 .f32) (h2 : a2.IsWhole) (a3 : Memref sig .tc .vmem S128 .f32) (h3 : a3.IsWhole) (a4 : Memref sig .tc .vmem S400x10000 .f32) (h4 : a4.IsWhole) (a5 : Memref sig .tc .vmem S400x128 .f32) (h5 : a5.IsWhole) (a6 : Memref sig .tc .vmem S10000x128 .f32) (h6 : a6.IsWhole) (hc : ¬cond0_0 i) (x0 : Vec F S10000x128 .f32) (x1 : Vec F S128x128 .f32) (x2 : Vec F S128 .f32) (x3 : Vec F S400x10000 .f32) (xs0 : Vec F S10000x128 .f32) :
    out0_B_4 c i a1 h1 a2 h2 a3 h3 a4 h4 a5 h5 a6 h6 hc x0 x1 x2 x3 xs0 = k0_pay2 x3 xs0 x2 := by
  unfold out0_B_4
  rw [View.read_writes_eq_canon _ _ _ (cover0_B_4 c i a1 h1 a2 h2 a3 h3 a4 h4 a5 h5 a6 h6 hc x0 x1 x2 x3 xs0)]
  unfold kernelRun0_B
  dsimp only
  rw [View.canon_unit_zero hz2]
  simp only [View.readAt_eq_ld, h4.read_unread, h6.read_unread, h3.read_unread, View.ld_unit_zero (S := S400x10000) hz2,
    View.ld_unit_zero (S := S10000x128) hz2, View.ld_unit_zero (S := S128) hz1]

/-- The first point: the scratch block ends at the projected features of the loaded x0 and x1. -/
theorem scratch_A (c : Dev nD) (i : grid0.Coords) (a1 : Memref sig .tc .vmem S10000x128 .f32) (h1 : a1.IsWhole) (a2 : Memref sig .tc .vmem S128x128 .f32) (h2 : a2.IsWhole) (a3 : Memref sig .tc .vmem S128 .f32) (h3 : a3.IsWhole) (a4 : Memref sig .tc .vmem S400x10000 .f32) (h4 : a4.IsWhole) (a5 : Memref sig .tc .vmem S400x128 .f32) (h5 : a5.IsWhole) (a6 : Memref sig .tc .vmem S10000x128 .f32) (h6 : a6.IsWhole) (hc : cond0_0 i) (x0 : Vec F S10000x128 .f32) (x1 : Vec F S128x128 .f32) (x2 : Vec F S128 .f32) (x3 : Vec F S400x10000 .f32) :
    sout0_A_0 c i a1 h1 a2 h2 a3 h3 a4 h4 a5 h5 a6 h6 hc x0 x1 x2 x3 = k0_pay1 x0 x1 := by
  unfold sout0_A_0
  rw [View.read_writes_eq_canon _ _ _ (scover0_A_0 c i a1 h1 a2 h2 a3 h3 a4 h4 a5 h5 a6 h6 hc x0 x1 x2 x3)]
  unfold kernelRun0_A
  dsimp only
  sl_unfold_words
  rw [View.canon_unit_zero hz2]
  simp only [View.readAt_eq_ld, h1.read_unread, h2.read_unread, View.ld_unit_zero (S := S10000x128) hz2,
    View.ld_unit_zero (S := S128x128) hz2]

/-- The first point: the output block is the payload of the adjacency block, the projected features just stored and
    read back, and the bias. -/
theorem out_A (c : Dev nD) (i : grid0.Coords) (a1 : Memref sig .tc .vmem S10000x128 .f32) (h1 : a1.IsWhole) (a2 : Memref sig .tc .vmem S128x128 .f32) (h2 : a2.IsWhole) (a3 : Memref sig .tc .vmem S128 .f32) (h3 : a3.IsWhole) (a4 : Memref sig .tc .vmem S400x10000 .f32) (h4 : a4.IsWhole) (a5 : Memref sig .tc .vmem S400x128 .f32) (h5 : a5.IsWhole) (a6 : Memref sig .tc .vmem S10000x128 .f32) (h6 : a6.IsWhole) (hc : cond0_0 i) (x0 : Vec F S10000x128 .f32) (x1 : Vec F S128x128 .f32) (x2 : Vec F S128 .f32) (x3 : Vec F S400x10000 .f32) :
    out0_A_4 c i a1 h1 a2 h2 a3 h3 a4 h4 a5 h5 a6 h6 hc x0 x1 x2 x3 = k0_pay2 x3 (k0_pay1 x0 x1) x2 := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero hz2, View.readCov_unit_zero (S := S10000x128) _ hz2]
  simp only [View.readAt_eq_ld, h1.read_unread, h2.read_unread, h3.read_unread, h4.read_unread,
    View.ld_unit_zero (S := S400x10000) hz2, View.ld_unit_zero (S := S10000x128) hz2, View.ld_unit_zero (S := S128x128) hz2,
    View.ld_unit_zero (S := S128) hz1]

end Cert.KernelPieces

end
-- ==== Proof.KernelBlocks.lean ====
/-
  The kernel's result array, read off its run.

  The grid has 25 points; point t handles rows 400·t … 400·t + 399 of the adjacency matrix and of the output. The
  windows of the features, the weights and the bias never move: at every point their block is the whole array. The
  adjacency window's block at point t is the row band 400·t …, all columns; the output window's block is the same row
  band of the output.

  The scratch block is written once, at point 0, with the projected features z = x · wᵀ, and no later point stores into
  it: so after EVERY point it holds z (induction on the point). Hence at every point the output block is the payload of
  that point's adjacency band, z and the bias, which entry by entry is the layer's function of the whole arrays at the
  band's rows. The bands cover the output, so the result array is that function.
-/
import proofs.«172232_g68204080660514_cont_9to1_m_597_22_alg».proof.Proof.Gen.KernelIdeal.Value
import proofs.«172232_g68204080660514_cont_9to1_m_597_22_alg».proof.Proof.KernelPieces
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelBlocks

open Cert.KernelIdeal Cert.KernelIdeal.Gen

variable {F : FTy → Type} [FloatOps F]
variable (m : (ℓ : Loc nD τ sig) → Buf (Elt F) ℓ)

/-- The printed index maps over the grid: the windows of the features, the weights and the bias stay at block 0; the
    adjacency window and the output window are at row block t, column block 0. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The features window's block at any point is the whole features array. -/
theorem blk_x (c : Dev nD) (t : Fin cfg0.N) :
    (iblk m c 0 t : Vec F S10000x128 .f32) = m ((c : Thread nD τ).loc main_arg0) := by
  obtain ⟨e0, e1, -⟩ := idx_facts t
  funext j
  unfold iblk
  rw [View.read_apply]
  show m ((c : Thread nD τ).loc main_arg0) _ = m ((c : Thread nD τ).loc main_arg0) _
  refine congrArg (m ((c : Thread nD τ).loc main_arg0)) (funext fun a => Fin.ext ?_)
  match a with
  | ⟨0, _⟩ => show win0_0.index t (0 : Fin 2) * 10000 + 1 * (j 0).val = (j 0).val; omega
  | ⟨1, _⟩ => show win0_0.index t (1 : Fin 2) * 128 + 1 * (j 1).val = (j 1).val; omega

/-- The weights window's block at any point is the whole weights array. -/
theorem blk_w (c : Dev nD) (t : Fin cfg0.N) :
    (iblk m c 1 t : Vec F S128x128 .f32) = m ((c : Thread nD τ).loc main_arg2) := by
  obtain ⟨-, -, e0, e1, -⟩ := idx_facts t
  funext j
  unfold iblk
  rw [View.read_apply]
  show m ((c : Thread nD τ).loc main_arg2) _ = m ((c : Thread nD τ).loc main_arg2) _
  refine congrArg (m ((c : Thread nD τ).loc main_arg2)) (funext fun a => Fin.ext ?_)
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- The bias window's block at any point is the whole bias. -/
theorem blk_b (c : Dev nD) (t : Fin cfg0.N) :
    (iblk m c 2 t : Vec F S128 .f32) = m ((c : Thread nD τ).loc main_arg3) := by
  obtain ⟨-, -, -, -, e0, -⟩ := idx_facts t
  funext j
  unfold iblk
  rw [View.read_apply]
  show m ((c : Thread nD τ).loc main_arg3) _ = m ((c : Thread nD τ).loc main_arg3) _
  refine congrArg (m ((c : Thread nD τ).loc main_arg3)) (funext fun a => Fin.ext ?_)
  match a with
  | ⟨0, _⟩ => show win0_2.index t (0 : Fin 1) * 128 + 1 * (j 0).val = (j 0).val; omega

/-- Row p of the adjacency window's block at point t is row 400·t + p of the adjacency matrix. -/
theorem blk_a (c : Dev nD) (t : Fin cfg0.N) (p : Fin 400) (j : Fin 10000) (r : Fin 10000) (hr : r.val = 400 * t.val + p.val) :
    (iblk m c 3 t : Vec F S400x10000 .f32) (ix2 p j) = m ((c : Thread nD τ).loc main_arg1) (ix2 r j) := by
  obtain ⟨-, -, -, -, -, e0, e1, -⟩ := idx_facts t
  unfold iblk
  rw [View.read_apply]
  show m ((c : Thread nD τ).loc main_arg1) _ = m ((c : Thread nD τ).loc main_arg1) _
  refine congrArg (m ((c : Thread nD τ).loc main_arg1)) (funext fun a => Fin.ext ?_)
  match a with
  | ⟨0, _⟩ => show win0_3.index t (0 : Fin 2) * 400 + 1 * p.val = r.val; omega
  | ⟨1, _⟩ => show win0_3.index t (1 : Fin 2) * 10000 + 1 * j.val = j.val; omega

/-- The projected features, as the first point computes them from the whole arrays. -/
abbrev Z (c : Dev nD) : Vec F S10000x128 .f32 :=
  k0_pay1 (m ((c : Thread nD τ).loc main_arg0)) (m ((c : Thread nD τ).loc main_arg2))

/-- After every point the scratch block holds the projected features: point 0 stores them, no later point stores into
    the scratch block. -/
theorem scratch_eq (c : Dev nD) : ∀ (n : ℕ) (h : n < cfg0.N), (outsAt0 m c n h).2 = Z m c
  | 0, h => by
    rw [outsAt0_A m c ⟨0, h⟩ rfl]
    dsimp only
    rw [Cert.KernelPieces.scratch_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) _ (iblk m c 0 ⟨0, h⟩) (iblk m c 1 ⟨0, h⟩) (iblk m c 2 ⟨0, h⟩) (iblk m c 3 ⟨0, h⟩),
      blk_x, blk_w]
  | n + 1, h => by
    have hN : cfg0.N = 25 := N_0
    have hB : ¬(⟨n + 1, h⟩ : Fin cfg0.N).val % 25 = 0 := by dsimp only; omega
    rw [outsAt0_B m c ⟨n + 1, h⟩ hB]
    dsimp only
    unfold sout0_B_0
    exact scratch_eq c n _

/-- So the output block of every point is the payload of that point's adjacency band, the projected features and the
    bias. -/
theorem out_eq (c : Dev nD) (t : Fin cfg0.N) :
    (outsAt0 m c t.val t.isLt).1 = k0_pay2 (iblk m c 3 t) (Z m c) (m ((c : Thread nD τ).loc main_arg3)) := by
  by_cases h0 : t.val % 25 = 0
  · rw [outsAt0_A m c t h0]
    dsimp only
    rw [Cert.KernelPieces.out_A c (grid0.coords t) (ms0_0 t) (hs0_0 t) (ms0_1 t) (hs0_1 t) (ms0_2 t) (hs0_2 t) (ms0_3 t) (hs0_3 t) (ms0_4 t) (hs0_4 t) scM0_0 (Memref.isWhole_whole _) _ (iblk m c 0 t) (iblk m c 1 t) (iblk m c 2 t) (iblk m c 3 t),
      blk_x, blk_w, blk_b]
  · rw [outsAt0_B m c t h0]
    dsimp only
    rw [Cert.KernelPieces.out_B c (grid0.coords t) (ms0_0 t) (hs0_0 t) (ms0_1 t) (hs0_1 t) (ms0_2 t) (hs0_2 t) (ms0_3 t) (hs0_3 t) (ms0_4 t) (hs0_4 t) scM0_0 (Memref.isWhole_whole _) _ (iblk m c 0 t) (iblk m c 1 t) (iblk m c 2 t) (iblk m c 3 t) _,
      scratch_eq, blk_b]

end Cert.KernelBlocks

end
-- ==== Proof.LibMatmulRows.lean ====
/-
  A rank-2 matrix product whose contraction runs along the SECOND axis of both operands, read at an entry.

  `matmul_rows_rows`: a matrix unit's product of an [A, K] by a [B, K] matrix into a zero accumulator, contracting
  axis 1 of the left operand with axis 1 of the right one, read at (p, q), is ∑ k, L(p,k) · R(q,k): row p of the left
  operand times ROW q of the right one (a product with the transpose). Stated for any dimension record whose four index
  facts (the left index takes the output row and the contraction position, the right index the output column and the
  contraction position) are supplied.
-/
import Idealize.ShloMosaic.Lib.ValueIdx
import Idealize.ShloMosaic.Lib.Pipeline.Value
import Idealize.ShloMosaic.PureOps.Ideal.Laws

noncomputable section

namespace Cert.MatmulRows

open Idealize.ShloMosaic Idealize.ShloMosaic.ValueIdx

/-- A matrix product into a zero accumulator that contracts the second axis of both operands, read at (p, q): the sum
    over the contracted axis of the left operand's row p times the right operand's row q. -/
theorem matmul_rows_rows {A K B : ℕ} {φ₁ φ₂ : FTy}
    (d : DotDims ⟨2, ![A, K]⟩ ⟨2, ![B, K]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (i 1).val)
    (hr1 : ∀ (i : (⟨2, ![A, B]⟩ : Shape).Idx) (q : d.contr.Idx), (d.rhsIdx i q 1).val = (q ⟨0, by omega⟩).val)
    (prec : Option ContractPrecision) (L : FVec Ideal ⟨2, ![A, K]⟩ φ₁) (R : FVec Ideal ⟨2, ![B, K]⟩ φ₂) (p : Fin A) (q : Fin B) :
    FloatOps.matmul d prec L R (constant ⟨2, ![A, B]⟩ .f32 0x00000000#32) (ix2 p q)
      = ∑ k : Fin K, L (ix2 p k) * R (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.MatmulRows

end
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.LibTileMask.lean ====
import Idealize.ShloMosaic.Lib.ValueIdx
import Idealize.ShloMosaic.Lib.ValueLayout
import Idealize.ShloMosaic.Lib.Pipeline.Value
noncomputable section
namespace Cert.TileMask
open Idealize.ShloMosaic Idealize.ShloMosaic.ValueIdx

/-- A natural number below 2^31, written as a 32-bit word and read back signed, is itself. -/
private theorem toInt_ofNat_small (m : ℕ) (h : m < 2 ^ 31) : (BitVec.ofNat 32 m).toInt = (m : ℤ) := by
  have hm : m % 2 ^ 32 = m := Nat.mod_eq_of_lt (by omega)
  rw [BitVec.toInt_eq_toNat_cond, BitVec.toNat_ofNat, hm]
  split
  · rfl
  · omega

/-- In tile v of width W, the test "global column v·W + j is below n" (a signed 32-bit comparison of v·W + iota against n, all below 2^31) reads 1 exactly when v·W + j < n. -/
theorem col_lt_apply {a b : ℕ} (hio : (⟨2, ![a, b]⟩ : Shape).Iotas .tc 32 [(1 : Fin 2)]) (v W n : ℕ)
    (hv : v * W + b < 2 ^ 31) (hn : n < 2 ^ 31) (p : Fin a) (j : Fin b) :
    cmpi .slt (addi (broadcast ⟨2, ![a, b]⟩ (Scalar.muli (BitVec.ofNat 32 v) (BitVec.ofNat 32 W))) (iota .tc ⟨2, ![a, b]⟩ 32 [1] hio))
        (broadcast ⟨2, ![a, b]⟩ (BitVec.ofNat 32 n)) (ix2 p j)
      = if v * W + j.val < n then 1#1 else 0#1 := by
  have hj := j.isLt
  -- at the index (p, j) the comparison is the signed comparison of the words v·W + (iota at (p, j)) and n
  show IntOp.cmpi .slt (IntOp.addi (Scalar.muli (BitVec.ofNat 32 v) (BitVec.ofNat 32 W))
      (iota .tc ⟨2, ![a, b]⟩ 32 [1] hio (ix2 p j))) (BitVec.ofNat 32 n) = _
  -- the iota along axis 1 reads the column coordinate j
  rw [iota_single_apply]
  show BitVec.ofBool ((BitVec.ofNat 32 v * BitVec.ofNat 32 W + BitVec.ofNat 32 j.val).slt (BitVec.ofNat 32 n)) = _
  -- the word arithmetic is the arithmetic of naturals, and both sides read signed are the naturals themselves
  rw [← BitVec.ofNat_mul, ← BitVec.ofNat_add, BitVec.slt, toInt_ofNat_small _ (by omega), toInt_ofNat_small _ hn]
  by_cases h : v * W + j.val < n
  · have h' : ((v * W + j.val : ℕ) : ℤ) < (n : ℤ) := by exact_mod_cast h
    rw [if_pos h, decide_eq_true h']
    rfl
  · have h' : ¬ ((v * W + j.val : ℕ) : ℤ) < (n : ℤ) := by exact_mod_cast h
    rw [if_neg h, decide_eq_false h']
    rfl

/-- A vector [b] cast to a row [1, b] and spread down the rows to [a, b] reads, at (p, j), the vector's entry j. -/
theorem row_bcast_apply {α : Type} {a b : ℕ} (x : (⟨1, ![b]⟩ : Shape).Idx → α) (hc : (⟨1, ![b]⟩ : Shape).ShapeCasts ⟨2, ![1, b]⟩)
    (hb : (⟨2, ![1, b]⟩ : Shape).Broadcasts ⟨2, ![a, b]⟩) (p : Fin a) (j : Fin b) :
    broadcastTo ⟨2, ![a, b]⟩ (shapeCast ⟨2, ![1, b]⟩ x hc) hb (ix2 p j) = x (ix1 j) := by
  rw [broadcastTo_1b_ab_apply, shapeCast_a_1a_apply]

/-- The column test at 1008 rows, tiles of 4096 columns, fewer than 13 tiles and 50257 columns in all. -/
example (v : ℕ) (hv : v < 13) (p : Fin 1008) (j : Fin 4096) :
    cmpi .slt (addi (broadcast ⟨2, ![1008, 4096]⟩ (Scalar.muli (BitVec.ofNat 32 v) 4096#32))
        (iota .tc ⟨2, ![1008, 4096]⟩ 32 [1] (by decide))) (broadcast ⟨2, ![1008, 4096]⟩ 50257#32) (ix2 p j)
      = if v * 4096 + j.val < 50257 then 1#1 else 0#1 :=
  col_lt_apply (by decide) v 4096 50257 (by omega) (by norm_num) p j

end Cert.TileMask
end
-- ==== Proof.KernelEntry.lean ====
/-
  The two pure values the kernel body stores, read at an entry over the extended reals.

  The first grid point stores x · wᵀ (features [10000, 128] against weights [128, 128] stored [out, in]): a matrix
  product contracting the second axis of both operands, so entry (j, o) is ∑ k, x(j,k) · w(o,k).

  Every grid point stores, for its block a ([400, 10000]) of rows of the adjacency matrix, the scratch contents z
  ([10000, 128]) and the bias b (128 entries), the block max (a · z + b, 0): entry (p, o) is
  max ((∑ j, a(p,j) · z(j,o)) + b(o), 0), the bias being spread down the 400 rows.
-/
import proofs.«172232_g68204080660514_cont_9to1_m_597_22_alg».proof.Proof.Gen.KernelIdeal.Skeleton
import proofs.«172232_g68204080660514_cont_9to1_m_597_22_alg».proof.Proof.Spec
import proofs.«172232_g68204080660514_cont_9to1_m_597_22_alg».proof.Proof.LibMatmulRows
import proofs.«172232_g68204080660514_cont_9to1_m_597_22_alg».proof.Proof.LibDenseLayer
import proofs.«172232_g68204080660514_cont_9to1_m_597_22_alg».proof.Proof.LibTileMask
import Idealize.ShloMosaic.Lib.ValueIdx
import Idealize.ShloMosaic.Lib.ValueLayout
import Idealize.ShloMosaic.Lib.Pipeline.Value
import Idealize.ShloMosaic.PureOps.Ideal.Laws

noncomputable section

namespace Cert.KernelEntry

open Idealize.ShloMosaic Idealize.ShloMosaic.ValueIdx Cert.KernelIdeal Cert.KernelIdeal.Gen

/-! ## Where the two products read their operands

For each product, the left operand is read at (output row, contraction position); the right operand of the first
product at (output column, contraction position), of the second at (contraction position, output column). -/

/-- First product: the left index's row is the output row. -/
theorem projL0 (i : S10000x128.Idx) (q : dot_S10000x128_S128x128_S10000x128_1_1_0_0_n_n.contr.Idx) :
    (dot_S10000x128_S128x128_S10000x128_1_1_0_0_n_n.lhsIdx i q 0).val = (i 0).val := by
  unfold DotDims.lhsIdx
  rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
  rfl

/-- First product: the left index's column is the contraction position. -/
theorem projL1 (i : S10000x128.Idx) (q : dot_S10000x128_S128x128_S10000x128_1_1_0_0_n_n.contr.Idx) :
    (dot_S10000x128_S128x128_S10000x128_1_1_0_0_n_n.lhsIdx i q 1).val = (q ⟨0, by decide⟩).val :=
  dot_S10000x128_S128x128_S10000x128_1_1_0_0_n_n.lhsIdx_val_of_single rfl i q

/-- First product: the right index's row is the output column. -/
theorem projR0 (i : S10000x128.Idx) (q : dot_S10000x128_S128x128_S10000x128_1_1_0_0_n_n.contr.Idx) :
    (dot_S10000x128_S128x128_S10000x128_1_1_0_0_n_n.rhsIdx i q 0).val = (i 1).val := by
  unfold DotDims.rhsIdx
  rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
  rfl

/-- First product: the right index's column is the contraction position. -/
theorem projR1 (i : S10000x128.Idx) (q : dot_S10000x128_S128x128_S10000x128_1_1_0_0_n_n.contr.Idx) :
    (dot_S10000x128_S128x128_S10000x128_1_1_0_0_n_n.rhsIdx i q 1).val = (q ⟨0, by decide⟩).val :=
  dot_S10000x128_S128x128_S10000x128_1_1_0_0_n_n.rhsIdx_val_of_single rfl i q

/-- Second product: the left index's row is the output row. -/
theorem aggL0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl

/-- Second product: the left index's column is the contraction position. -/
theorem aggL1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q

/-- Second product: the right index's row is the contraction position. -/
theorem aggR0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q

/-- Second product: the right index's column is the output column. -/
theorem aggR1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-! ## The two stored values at an entry -/

/-- Entry (j, o) of the projected features the first grid point leaves in the scratch block. -/
theorem proj_entry (x : Vec Ideal S10000x128 .f32) (w : Vec Ideal S128x128 .f32) (j : Fin 10000) (o : Fin 128) :
    k0_pay1 (F := Ideal) x w (ix2 j o) = Cert.GraphLayer.proj x w j o := by
  -- the cast to the same shape changes nothing; what is left is the product contracting the second axis of both operands
  show shapeCast S10000x128 (FloatOps.matmul (F := Ideal) dot_S10000x128_S128x128_S10000x128_1_1_0_0_n_n none x w
      (constant (F := Ideal) S10000x128 .f32 0x00000000#32)) shapeCasts_S10000x128_S10000x128 (ix2 j o) = _
  rw [shapeCast_self]
  exact Cert.MatmulRows.matmul_rows_rows dot_S10000x128_S128x128_S10000x128_1_1_0_0_n_n rfl rfl projL0 projL1 projR0 projR1 none x w j o

/-- Entry (p, o) of the output block a grid point stores, from the adjacency block a, the scratch contents z and the bias b. -/
theorem block_entry (a : Vec Ideal S400x10000 .f32) (z : Vec Ideal S10000x128 .f32) (b : Vec Ideal S128 .f32) (p : Fin 400) (o : Fin 128) :
    k0_pay2 (F := Ideal) a z b (ix2 p o)
      = max ((∑ j : Fin 10000, a (ix2 p j) * z (ix2 j o)) + b (ix1 o)) (Ideal.ofBits .f32 0x00000000#32) := by
  -- the maximum and the sum are entrywise, and the second argument of the maximum is the constant 0 at every entry
  show max (FloatOps.matmul (F := Ideal) dot_S400x10000_S10000x128_S400x128_1_0_0_1_n_n none a z (constant (F := Ideal) S400x128 .f32 0x00000000#32) (ix2 p o)
        + broadcastTo S400x128 (shapeCast S1x128 b shapeCasts_S128_S1x128) broadcasts_S1x128_S400x128 (ix2 p o))
      (Ideal.ofBits .f32 0x00000000#32) = _
  -- the product at (p, o) is row p of a against column o of z; the bias row spread down the rows reads b(o)
  rw [Cert.DenseLayer.matmul_rows_cols dot_S400x10000_S10000x128_S400x128_1_0_0_1_n_n rfl rfl aggL0 aggL1 aggR0 aggR1 none a z p o,
    Cert.TileMask.row_bcast_apply b shapeCasts_S128_S1x128 broadcasts_S1x128_S400x128 p o]

end Cert.KernelEntry

end
-- ==== Proof.KernelValue.lean ====
/-
  The kernel's result array is the layer's function of the four argument arrays.

  What point t writes back is the output block the body left: entry (p, o) of it is
  max ((∑ j, band(p,j) · z(j,o)) + b(o), 0) with band the adjacency rows 400·t … and z the projected features, and
  z(j,o) = ∑ k, x(j,k) · w(o,k). That is the layer's function (projection first) at row 400·t + p, column o — the
  output window's block at point t read through the same rows. Every row r of the output lies in the band of point
  r / 400, so the 25 blocks cover the result array.
-/
import proofs.«172232_g68204080660514_cont_9to1_m_597_22_alg».proof.Proof.KernelBlocks
import proofs.«172232_g68204080660514_cont_9to1_m_597_22_alg».proof.Proof.KernelEntry
import proofs.«172232_g68204080660514_cont_9to1_m_597_22_alg».proof.Proof.Spec

noncomputable section

open Idealize.ShloMosaic Idealize.ShloMosaic.TcCoe Idealize.SL.Sem Idealize.ShloMosaic.ValueIdx
open Idealize.ShloMosaic.Pipeline (Dat)

namespace Cert.KernelValue

open Cert.KernelIdeal Cert.KernelIdeal.Gen Cert.KernelBlocks

variable (m : (ℓ : Loc nD τ sig) → Buf (Elt Ideal) ℓ) (ρ : Dev nD → PrngReg)

/-- The layer (projection first) of the argument arrays as launched, as contents of the result array. -/
abbrev layer (c : Dev nD) : Buf (Elt Ideal) ((c : Thread nD τ).loc main_v0) :=
  Cert.GraphLayer.aggProj (m ((c : Thread nD τ).loc main_arg0)) (m ((c : Thread nD τ).loc main_arg1)) (m ((c : Thread nD τ).loc main_arg2)) (m ((c : Thread nD τ).loc main_arg3))

/-- Entry (p, o) of an output block whose adjacency band A is row r of the adjacency matrix a, computed from the
    projected features of x and w and the bias b, is the layer at row r, column o. -/
theorem band_entry_of (A : Vec Ideal S400x10000 .f32) (x : Vec Ideal S10000x128 .f32) (a : Vec Ideal S10000x10000 .f32)
    (w : Vec Ideal S128x128 .f32) (b : Vec Ideal S128 .f32) (p : Fin 400) (o : Fin 128) (r : Fin 10000)
    (hA : ∀ j : Fin 10000, A (ix2 p j) = a (ix2 r j)) :
    k0_pay2 (F := Ideal) A (k0_pay1 (F := Ideal) x w) b (ix2 p o) = Cert.GraphLayer.aggProj x a w b (ix2 r o) := by
  refine (Cert.KernelEntry.block_entry A (k0_pay1 (F := Ideal) x w) b p o).trans ?_
  show _ = max ((∑ j : Fin 10000, a (ix2 r j) * Cert.GraphLayer.proj x w j o) + b (ix1 o)) (Ideal.ofBits .f32 0x00000000#32)
  refine congrArg (fun s => max (s + b (ix1 o)) (Ideal.ofBits .f32 0x00000000#32)) (Finset.sum_congr rfl fun j _ => ?_)
  rw [hA j, Cert.KernelEntry.proj_entry]

/-- Entry (p, o) of the output block of point t is the layer at row 400·t + p, column o. -/
theorem band_entry (c : Dev nD) (t : Fin cfg0.N) (p : Fin 400) (o : Fin 128) (r : Fin 10000) (hr : r.val = 400 * t.val + p.val) :
    k0_pay2 (F := Ideal) (iblk m c 3 t) (Z m c) (m ((c : Thread nD τ).loc main_arg3)) (ix2 p o) = layer m c (ix2 r o) :=
  band_entry_of (iblk m c 3 t) (m ((c : Thread nD τ).loc main_arg0)) (m ((c : Thread nD τ).loc main_arg1)) (m ((c : Thread nD τ).loc main_arg2)) (m ((c : Thread nD τ).loc main_arg3)) p o r
    (fun j => blk_a m c t p j r hr)

/-- What point t writes back is block t of the layer of the argument arrays. -/
theorem flushed_eq (c : Dev nD) (t : Fin cfg0.N) :
    (dats m 0 c).flushed 4 t = ((cfg0.win 4).blk t).view.read (Elt Ideal) (layer m c) := by
  have hN : t.val < 25 := lt_of_lt_of_eq t.isLt N_0
  obtain ⟨-, -, -, -, -, -, -, e0, e1⟩ := idx_facts t
  rw [Cert.KernelIdeal.Value.flushed4, out_eq]
  funext y
  obtain ⟨p, o, rfl⟩ : ∃ (p : Fin 400) (o : Fin 128), y = ix2 p o := ⟨y 0, y 1, eq_ix2 y⟩
  have hr : 400 * t.val + p.val < 10000 := by have := p.isLt; omega
  have hemb : ((cfg0.win 4).blk t).view.emb (ix2 p o) = ix2 (⟨400 * t.val + p.val, hr⟩ : Fin 10000) o :=
    funext fun a => Fin.ext (by
      match a with
      | ⟨0, _⟩ => show win0_4.index t (0 : Fin 2) * 400 + 1 * p.val = 400 * t.val + p.val; omega
      | ⟨1, _⟩ => show win0_4.index t (1 : Fin 2) * 128 + 1 * o.val = o.val; omega)
  show k0_pay2 (F := Ideal) (iblk m c 3 t) (Z m c) (m ((c : Thread nD τ).loc main_arg3)) (ix2 p o)
    = layer m c (((cfg0.win 4).blk t).view.emb (ix2 p o))
  rw [hemb]
  exact band_entry m c t p o ⟨400 * t.val + p.val, hr⟩ rfl

/-- An index of the result array is in point t's block iff each coordinate is in the block's range on its axis. -/
theorem mem_blk (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v0).slice (win0_4.rect t)).set ↔ _
  rw [View.set_slice_whole, Rect.mem_set_unit]
  exact Iff.rfl

/-- Row r of the result array lies in the block of point r / 400. -/
theorem cover (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 25 := N_0
  obtain ⟨t, ht⟩ : ∃ t : Fin cfg0.N, t.val = (i 0).val / 400 := ⟨⟨(i 0).val / 400, by rw [hN]; omega⟩, rfl⟩
  obtain ⟨-, -, -, -, -, -, -, e0, e1⟩ := idx_facts t
  refine ⟨t, flush0_4 t, ?_⟩
  rw [mem_blk]
  intro a
  match a with
  | ⟨0, _⟩ => show win0_4.index t (0 : Fin 2) * 400 ≤ (i 0).val ∧ (i 0).val < win0_4.index t (0 : Fin 2) * 400 + 400; omega
  | ⟨1, _⟩ => show win0_4.index t (1 : Fin 2) * 128 ≤ (i 1).val ∧ (i 1).val < win0_4.index t (1 : Fin 2) * 128 + 128; omega

/-- So the result array ends holding the layer of the argument arrays. -/
theorem final (c : Dev nD) : (dats m 0 c).arrAt 4 cfg0.N = layer m c :=
  (dats m 0 c).arrAt_eq_of_cover 4 (layer m c) (fun t _ => flushed_eq m c t) cover

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v0) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelValue

end
-- ==== Proof.lean ====
/-
  A dense graph-convolution layer: relu (a · x · wᵀ + b) for features x ([10000, 128]), a dense adjacency matrix a
  ([10000, 10000]), weights w ([128, 128], stored [out, in]) and a bias b (128 entries).

  The kernel walks 25 row bands of a. At the first band it projects the features once, z = x · wᵀ, into a scratch
  block that stays in place for the rest of the walk; every band then computes relu (band · z + b) for its 400 output
  rows. The reference multiplies in the other order: relu ((a · x) · wᵀ + b).

  Over the extended reals the two agree entry by entry when the entries of a, x and w are real numbers, since
  ∑ k, (∑ j, a(i,j) · x(j,k)) · w(o,k) = ∑ j, a(i,j) · (∑ k, x(j,k) · w(o,k)) for real matrices (distributivity and the
  exchange of two finite sums; both can fail at an infinite entry, which is why the precondition — every input entry
  finite — is used). The bias and the final maximum with zero are the same on both sides.

  The three frames are the kernels' frame runs and the reference's run with the result dropped; the idealization
  rewrote nothing, so there is nothing to preserve; the algebraic claim sets the kernel's result array (the layer with
  the projection first, read off its run band by band) beside the reference's (the layer with the aggregation first,
  read off its run operation by operation) and joins them by the re-bracketing law.
-/
import proofs.«172232_g68204080660514_cont_9to1_m_597_22_alg».proof.Defs
import proofs.«172232_g68204080660514_cont_9to1_m_597_22_alg».proof.Proof.Gen.Kernel
import proofs.«172232_g68204080660514_cont_9to1_m_597_22_alg».proof.Proof.Gen.Kernel.Skeleton
import proofs.«172232_g68204080660514_cont_9to1_m_597_22_alg».proof.Proof.Gen.Kernel.Launch
import proofs.«172232_g68204080660514_cont_9to1_m_597_22_alg».proof.Proof.Gen.Kernel.Points
import proofs.«172232_g68204080660514_cont_9to1_m_597_22_alg».proof.Proof.Gen.Kernel.Frame
import proofs.«172232_g68204080660514_cont_9to1_m_597_22_alg».proof.Proof.Gen.KernelIdeal
import proofs.«172232_g68204080660514_cont_9to1_m_597_22_alg».proof.Proof.Gen.KernelIdeal.Skeleton
import proofs.«172232_g68204080660514_cont_9to1_m_597_22_alg».proof.Proof.Gen.KernelIdeal.Launch
import proofs.«172232_g68204080660514_cont_9to1_m_597_22_alg».proof.Proof.Gen.KernelIdeal.Points
import proofs.«172232_g68204080660514_cont_9to1_m_597_22_alg».proof.Proof.Gen.KernelIdeal.Frame
import proofs.«172232_g68204080660514_cont_9to1_m_597_22_alg».proof.Proof.Gen.ReferenceIdeal
import proofs.«172232_g68204080660514_cont_9to1_m_597_22_alg».proof.Proof.Gen.Pre_finite_inputs
import proofs.«172232_g68204080660514_cont_9to1_m_597_22_alg».proof.Proof.Gen.KernelIdeal.Value
import proofs.«172232_g68204080660514_cont_9to1_m_597_22_alg».proof.Proof.Gen.ReferenceIdeal.Run
import proofs.«172232_g68204080660514_cont_9to1_m_597_22_alg».proof.Proof.Gen.ReferenceIdeal.Read
import proofs.«172232_g68204080660514_cont_9to1_m_597_22_alg».proof.Proof.Spec
import proofs.«172232_g68204080660514_cont_9to1_m_597_22_alg».proof.Proof.FiniteArgs
import proofs.«172232_g68204080660514_cont_9to1_m_597_22_alg».proof.Proof.RefEntry
import proofs.«172232_g68204080660514_cont_9to1_m_597_22_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The kernel's result array ends at the layer with the projection first, the reference's at the layer with the
    aggregation first, of arguments that agree and are real entry by entry: one function, by re-bracketing. -/
theorem algebraic : Cert.algebraic_KernelIdeal_ReferenceIdeal := by
  intro m ρ m' ρ' hpre hagree
  refine ⟨fun c => Cert.KernelValue.layer m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.RefLayer.ref_eq, (hagree c).1, (hagree c).2.1, (hagree c).2.2.1,
    (hagree c).2.2.2]
  obtain ⟨hx, ha, hw, -⟩ := Cert.FiniteArgs.real_of_pre _ _ _ _ (hpre c)
  exact (Cert.GraphLayer.aggProj_eq_projAgg _ _ _ _ hx ha hw).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
